-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x288x16384 : Shape := ⟨3, ![8, 288, 16384]⟩
abbrev S64x32x3x3 : Shape := ⟨4, ![64, 32, 3, 3]⟩
abbrev S64 : Shape := ⟨1, ![64]⟩
abbrev S_ : Shape := ⟨0, ![]⟩

class Facts : Prop where
  bcast_S_S8x288x16384 : S_.BroadcastsInDim S8x288x16384 (![] : Fin 0 → Fin S8x288x16384.rank)
  reducesTo_S8x288x16384_S_d0_1_2 : S8x288x16384.ReducesTo [0, 1, 2] S_
  h_S_ : 0 < S_.numel
  bcast_S_S64x32x3x3 : S_.BroadcastsInDim S64x32x3x3 (![] : Fin 0 → Fin S64x32x3x3.rank)
  reducesTo_S64x32x3x3_S_d0_1_2_3 : S64x32x3x3.ReducesTo [0, 1, 2, 3] S_
  bcast_S_S64 : S_.BroadcastsInDim S64 (![] : Fin 0 → Fin S64.rank)
  reducesTo_S64_S_d0 : S64.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S8x288x16384 .f32) (main_arg1 : FVec F S64x32x3x3 .f32) (main_arg2 : FVec F S64 .f32) (main_arg3 : FVec F S_ .f32) : IVec S_ 1 :=
  let main_v0 : FVec F S8x288x16384 .f32 := Host.absf main_arg0
  let main_cst : FVec F S_ .f32 := constant S_ .f32 0x7F800000#32
  let main_v1 : FVec F S8x288x16384 .f32 := broadcastInDim S8x288x16384 ![] bcast_S_S8x288x16384 main_cst
  let main_v2 : IVec S8x288x16384 1 := cmpf .olt main_v0 main_v1
  let main_c : IVec S_ 1 := constantI S_ 1 1#1
  let main_v3 : IVec S_ 1 := (fun x v => Host.reduce IntOp.andi x v reducesTo_S8x288x16384_S_d0_1_2 h_S_) main_v2 main_c
  let main_v4 : FVec F S64x32x3x3 .f32 := Host.absf main_arg1
  let main_cst_0 : FVec F S_ .f32 := constant S_ .f32 0x7F800000#32
  let main_v5 : FVec F S64x32x3x3 .f32 := broadcastInDim S64x32x3x3 ![] bcast_S_S64x32x3x3 main_cst_0
  let main_v6 : IVec S64x32x3x3 1 := cmpf .olt main_v4 main_v5
  let main_c_1 : IVec S_ 1 := constantI S_ 1 1#1
  let main_v7 : IVec S_ 1 := (fun x v => Host.reduce IntOp.andi x v reducesTo_S64x32x3x3_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S8x288x16384 : Shape := ⟨3, ![8, 288, 16384]⟩
abbrev S64x32x3x3 : Shape := ⟨4, ![64, 32, 3, 3]⟩
abbrev S64 : Shape := ⟨1, ![64]⟩
abbrev S_ : Shape := ⟨0, ![]⟩
abbrev S18432 : Shape := ⟨1, ![18432]⟩
abbrev S288x64 : Shape := ⟨2, ![288, 64]⟩
abbrev S1x64 : Shape := ⟨2, ![1, 64]⟩
abbrev S1x1 : Shape := ⟨2, ![1, 1]⟩
abbrev S8x16384x64 : Shape := ⟨3, ![8, 16384, 64]⟩
abbrev S1x288x4096 : Shape := ⟨3, ![1, 288, 4096]⟩
abbrev S1x4096x64 : Shape := ⟨3, ![1, 4096, 64]⟩
abbrev S288x4096 : Shape := ⟨2, ![288, 4096]⟩
abbrev S4096 : Shape := ⟨1, ![4096]⟩
abbrev S1x4096 : Shape := ⟨2, ![1, 4096]⟩
abbrev S4096x1 : Shape := ⟨2, ![4096, 1]⟩
abbrev S4096x64 : Shape := ⟨2, ![4096, 64]⟩

abbrev nBuf : Space → Nat
  | .hbm => 21
  | .vmem => 8
  | .smem => 0
  | _ => 0

abbrev bufTy : (tb : Table) → Fin (tcTables nBuf tb) → BufTy
  | .hbm, ⟨0, _⟩ => ⟨S8x288x16384, .f32⟩
  | .hbm, ⟨1, _⟩ => ⟨S64x32x3x3, .f32⟩
  | .hbm, ⟨2, _⟩ => ⟨S64, .f32⟩
  | .hbm, ⟨3, _⟩ => ⟨S_, .f32⟩
  | .hbm, ⟨4, _⟩ => ⟨S18432, .f32⟩
  | .hbm, ⟨5, _⟩ => ⟨S288x64, .f32⟩
  | .hbm, ⟨6, _⟩ => ⟨S288x64, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S288x64, .f32⟩
  | .hbm, ⟨12, _⟩ => ⟨S288x64, .f32⟩
  | .hbm, ⟨13, _⟩ => ⟨S288x64, .bf16⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S1x64, .f32⟩
  | .hbm, ⟨18, _⟩ => ⟨S1x64, .f32⟩
  | .hbm, ⟨19, _⟩ => ⟨S1x1, .f32⟩
  | .hbm, ⟨20, _⟩ => ⟨S8x16384x64, .f32⟩
  | .local _ .vmem, ⟨0, _⟩ => ⟨S1x288x4096, .f32⟩
  | .local _ .vmem, ⟨1, _⟩ => ⟨S1x288x4096, .f32⟩
  | .local _ .vmem, ⟨2, _⟩ => ⟨S288x64, .bf16⟩
  | .local _ .vmem, ⟨3, _⟩ => ⟨S1x64, .f32⟩
  | .local _ .vmem, ⟨4, _⟩ => ⟨S1x64, .f32⟩
  | .local _ .vmem, ⟨5, _⟩ => ⟨S1x1, .f32⟩
  | .local _ .vmem, ⟨6, _⟩ => ⟨S1x4096x64, .f32⟩
  | .local _ .vmem, ⟨7, _⟩ => ⟨S1x4096x64, .f32⟩
  | _, _ => ⟨S8x288x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x288x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S288x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S64x32x3x3_S18432 : S64x32x3x3.ShapeCasts S18432
  shapeCasts_S18432_S288x64 : S18432.ShapeCasts S288x64
  reducesTo_S288x64_S64_d0 : S288x64.ReducesTo [0] S64
  h_S_ : 0 < S_.numel
  bcast_S_S288x64 : S_.BroadcastsInDim S288x64 (![] : Fin 0 → Fin S288x64.rank)
  bitsLt_bf16_f32 : FTy.bits .bf16 < FTy.bits .f32
  bcast_S_S64 : S_.BroadcastsInDim S64 (![] : Fin 0 → Fin S64.rank)
  shapeCasts_S64_S1x64 : S64.ShapeCasts S1x64
  shapeCasts_S_S1x1 : S_.ShapeCasts S1x1
  inb_S1x288x4096_S1x288x4096_0_0_0 : ∀ a, (![0, 0, 0] : Fin 3 → Nat) a + S1x288x4096.size a ≤ S1x288x4096.size a
  h_S1x288x4096 : 0 < S1x288x4096.numel
  shapeCasts_S1x288x4096_S288x4096 : S1x288x4096.ShapeCasts S288x4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S288x4096_S4096 : S288x4096.Reduces [0] S4096
  shapeCasts_S4096_S1x4096 : S4096.ShapeCasts S1x4096
  transposes_S1x4096_p1_0_S4096x1 : S1x4096.Transposes [1, 0] S4096x1
  inb_S288x64_S288x64_0_0 : ∀ a, (![0, 0] : Fin 2 → Nat) a + S288x64.size a ≤ S288x64.size a
  h_S288x64 : 0 < S288x64.numel
  shapeCasts_S288x64_S288x64 : S288x64.ShapeCasts S288x64
  broadcasts_S4096x1_S4096x64 : S4096x1.Broadcasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  dot_S288x4096_S288x64_S4096x64_0_0_1_1_n_n_wf : DotDims.WF S288x4096 S288x64 S4096x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x288x4096.size a ≤ S8x288x16384.size a
  hwx0_0 : ∀ i : grid0.Coords, EltTy.bits .f32 = 32 ∨ (Rect.block (s := S8x288x16384) S1x288x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x64.size a ≤ S288x64.size a
  hwx0_1 : ∀ i : grid0.Coords, EltTy.bits .bf16 = 32 ∨ (Rect.block (s := S288x64) S288x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x64.size a ≤ S8x16384x64.size a
  hwx0_5 : ∀ i : grid0.Coords, EltTy.bits .f32 = 32 ∨ (Rect.block (s := S8x16384x64) S1x4096x64.size (cc0_transform_5 i) (hinb0_5 i)).WholeWords (EltTy.packing .f32)

variable [Facts₀]

def dot_S288x4096_S288x64_S4096x64_0_0_1_1_n_n : DotDims S288x4096 S288x64 S4096x64 where
  lhsContracting := [0]
  rhsContracting := [0]
  lhsNonContracting := [1]
  rhsNonContracting := [1]
  lhsBatch := []
  rhsBatch := []
  wf := dot_S288x4096_S288x64_S4096x64_0_0_1_1_n_n_wf

abbrev win0_0 : Pipeline.Window sig grid0 :=
  Pipeline.Window.ofSpec (Memref.whole main_arg0) S1x288x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S288x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x4096x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x288x16384 : Shape := ⟨3, ![8, 288, 16384]⟩
abbrev S64x32x3x3 : Shape := ⟨4, ![64, 32, 3, 3]⟩
abbrev S64 : Shape := ⟨1, ![64]⟩
abbrev S_ : Shape := ⟨0, ![]⟩
abbrev S18432 : Shape := ⟨1, ![18432]⟩
abbrev S288x64 : Shape := ⟨2, ![288, 64]⟩
abbrev S8x16384x288 : Shape := ⟨3, ![8, 16384, 288]⟩
abbrev S8x16384 : Shape := ⟨2, ![8, 16384]⟩
abbrev S8x16384x1 : Shape := ⟨3, ![8, 16384, 1]⟩
abbrev S1x1x64 : Shape := ⟨3, ![1, 1, 64]⟩
abbrev S8x16384x64 : Shape := ⟨3, ![8, 16384, 64]⟩

abbrev nBuf : Space → Nat
  | .hbm => 30
  | .vmem => 0
  | .smem => 0
  | _ => 0

abbrev bufTy : (tb : Table) → Fin (tcTables nBuf tb) → BufTy
  | .hbm, ⟨0, _⟩ => ⟨S8x288x16384, .f32⟩
  | .hbm, ⟨1, _⟩ => ⟨S64x32x3x3, .f32⟩
  | .hbm, ⟨2, _⟩ => ⟨S64, .f32⟩
  | .hbm, ⟨3, _⟩ => ⟨S_, .f32⟩
  | .hbm, ⟨4, _⟩ => ⟨S18432, .f32⟩
  | .hbm, ⟨5, _⟩ => ⟨S288x64, .f32⟩
  | .hbm, ⟨6, _⟩ => ⟨S8x16384x288, .f32⟩
  | .hbm, ⟨7, _⟩ => ⟨S8x16384x288, .f32⟩
  | .hbm, ⟨8, _⟩ => ⟨S_, .f32⟩
  | .hbm, ⟨9, _⟩ => ⟨S8x16384, .f32⟩
  | .hbm, ⟨10, _⟩ => ⟨S8x16384x1, .f32⟩
  | .hbm, ⟨11, _⟩ => ⟨S288x64, .f32⟩
  | .hbm, ⟨12, _⟩ => ⟨S_, .f32⟩
  | .hbm, ⟨13, _⟩ => ⟨S64, .f32⟩
  | .hbm, ⟨14, _⟩ => ⟨S1x1x64, .f32⟩
  | .hbm, ⟨15, _⟩ => ⟨S8x16384x64, .f32⟩
  | .hbm, ⟨16, _⟩ => ⟨S8x16384x64, .f32⟩
  | .hbm, ⟨17, _⟩ => ⟨S8x16384x64, .f32⟩
  | .hbm, ⟨18, _⟩ => ⟨S8x16384x64, .f32⟩
  | .hbm, ⟨19, _⟩ => ⟨S_, .f32⟩
  | .hbm, ⟨20, _⟩ => ⟨S8x16384x64, .f32⟩
  | .hbm, ⟨21, _⟩ => ⟨S8x16384x64, .f32⟩
  | .hbm, ⟨22, _⟩ => ⟨S8x16384x64, .f32⟩
  | .hbm, ⟨23, _⟩ => ⟨S_, .f32⟩
  | .hbm, ⟨24, _⟩ => ⟨S8x16384x64, .f32⟩
  | .hbm, ⟨25, _⟩ => ⟨S8x16384x64, .f32⟩
  | .hbm, ⟨26, _⟩ => ⟨S8x16384x64, .f32⟩
  | .hbm, ⟨27, _⟩ => ⟨S1x1x64, .f32⟩
  | .hbm, ⟨28, _⟩ => ⟨S8x16384x64, .f32⟩
  | .hbm, ⟨29, _⟩ => ⟨S8x16384x64, .f32⟩
  | _, _ => ⟨S8x288x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  shapeCasts_S64x32x3x3_S18432 : S64x32x3x3.ShapeCasts S18432
  shapeCasts_S18432_S288x64 : S18432.ShapeCasts S288x64
  transposes_S8x288x16384_S8x16384x288_0_2_1 : S8x288x16384.Transposes [0, 2, 1] S8x16384x288
  reducesTo_S8x16384x288_S8x16384_d2 : S8x16384x288.ReducesTo [2] S8x16384
  h_S_ : 0 < S_.numel
  bcast_S8x16384_S8x16384x1_0_1 : S8x16384.BroadcastsInDim S8x16384x1 (![0, 1] : Fin 2 → Fin S8x16384x1.rank)
  reducesTo_S288x64_S64_d0 : S288x64.ReducesTo [0] S64
  bcast_S64_S1x1x64_2 : S64.BroadcastsInDim S1x1x64 (![2] : Fin 1 → Fin S1x1x64.rank)
  bcast_S8x16384x1_S8x16384x64_0_1_2 : S8x16384x1.BroadcastsInDim S8x16384x64 (![0, 1, 2] : Fin 3 → Fin S8x16384x64.rank)
  bcast_S1x1x64_S8x16384x64_0_1_2 : S1x1x64.BroadcastsInDim S8x16384x64 (![0, 1, 2] : Fin 3 → Fin S8x16384x64.rank)
  bcast_S_S8x16384x64 : S_.BroadcastsInDim S8x16384x64 (![] : Fin 0 → Fin S8x16384x64.rank)
  dot_S8x16384x288_S288x64_S8x16384x64_2_0_01_1_n_n_wf : DotDims.WF S8x16384x288 S288x64 S8x16384x64 [2] [0] [0, 1] [1] [] []

variable [Facts₀]

def dot_S8x16384x288_S288x64_S8x16384x64_2_0_01_1_n_n : DotDims S8x16384x288 S288x64 S8x16384x64 where
  lhsContracting := [2]
  rhsContracting := [0]
  lhsNonContracting := [0, 1]
  rhsNonContracting := [1]
  lhsBatch := []
  rhsBatch := []
  wf := dot_S8x16384x288_S288x64_S8x16384x64_2_0_01_1_n_n_wf

class Facts : Prop extends Facts₀ where

variable [Facts]
-- ==== Proof.LibRealEntries.lean ====
/-
  Extended reals that are real numbers, and the one law that joins the two programs' batch normalisations.

  An extended real is called real when it is the image of a real number. Sums, differences, products, maxima and
  quotients by a nonzero real of real entries are real, and so is the reciprocal square root of a positive real.

  The law: for n real numbers a_i and N = n (as a real, nonzero),
      (sum of a_i^2) / N - (sum a_i / N)^2  =  (sum of (a_i - sum a / N)^2) / N,
  the mean of the squares minus the square of the mean is the mean of the squared deviations. It holds for real
  entries only (an infinite entry makes the two sides different infinities), which is why finiteness is carried
  through every layer. The right-hand side is a nonnegative real, so adding a positive epsilon and taking the
  reciprocal square root gives a real number.
-/
import Idealize.ShloMosaic.PureOps.Ideal

noncomputable section

open scoped BigOperators

namespace Cert.Algebra

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.div_real {x : EReal} (hx : IsReal x) {y : ℝ} (hy : y ≠ 0) : IsReal (Ideal.div x (y : EReal)) := by
  rw [Ideal.div_coe hy]; exact hx.mul ⟨_, rfl⟩

/-- The reciprocal square root of a positive real is a real. -/
theorem isReal_rsqrt_pos {r : ℝ} (h : 0 < r) : IsReal (Ideal.rsqrt (r : EReal)) := by
  rw [Ideal.rsqrt_coe, if_neg (not_lt.mpr h.le), if_neg h.ne']
  exact ⟨_, rfl⟩

/-- The mean of the squares minus the square of the mean is the mean of the squared deviations, for real entries. -/
theorem var_eq {n : ℕ} (a : Fin n → EReal) (ha : ∀ i, IsReal (a i)) (N : ℝ) (hN : N ≠ 0) (hn : (n : ℝ) = N) :
    Ideal.div (∑ i, a i * a i) (N : EReal) - Ideal.div (∑ i, a i) (N : EReal) * Ideal.div (∑ i, a i) (N : EReal)
      = Ideal.div (∑ i, (a i - Ideal.div (∑ j, a j) (N : EReal)) * (a i - Ideal.div (∑ j, a j) (N : EReal))) (N : EReal) := by
  choose f hf using ha
  have hfun : a = fun i => (f i : EReal) := funext hf
  subst hfun
  simp only [Ideal.div_coe hN, ← EReal.coe_mul, ← coe_sum, ← EReal.coe_sub]
  refine congrArg _ ?_
  have h1 : ∑ i, (f i - (∑ j, f j) * (1 / N)) * (f i - (∑ j, f j) * (1 / N))
      = ∑ i, f i * f i - 2 * ((∑ j, f j) * (1 / N)) * ∑ i, f i + (n : ℝ) * (((∑ j, f j) * (1 / N)) * ((∑ j, f j) * (1 / N))) := by
    have : ∀ i, (f i - (∑ j, f j) * (1 / N)) * (f i - (∑ j, f j) * (1 / N))
        = f i * f i - 2 * ((∑ j, f j) * (1 / N)) * f i + ((∑ j, f j) * (1 / N)) * ((∑ j, f j) * (1 / N)) := fun i => by ring
    simp only [this, Finset.sum_add_distrib, Finset.sum_sub_distrib, ← Finset.mul_sum, Finset.sum_const, Finset.card_univ,
      Fintype.card_fin, nsmul_eq_mul]
    ring
  rw [h1, hn]
  field_simp
  ring

/-- The mean of the squared deviations of real entries, plus a positive real, has a real reciprocal square root. -/
theorem isReal_rsqrt_var {n : ℕ} (a : Fin n → EReal) (ha : ∀ i, IsReal (a i)) (μ : EReal) (hμ : IsReal μ) (N : ℝ) (hN : 0 < N)
    (e : ℝ) (he : 0 < e) : IsReal (Ideal.rsqrt (Ideal.div (∑ i, (a i - μ) * (a i - μ)) (N : EReal) + (e : EReal))) := by
  choose f hf using ha
  obtain ⟨u, rfl⟩ := hμ
  have hfun : a = fun i => (f i : EReal) := funext hf
  subst hfun
  simp only [Ideal.div_coe hN.ne', ← EReal.coe_mul, ← coe_sum, ← EReal.coe_sub, ← EReal.coe_add]
  refine isReal_rsqrt_pos ?_
  have : 0 ≤ (∑ i, (f i - u) * (f i - u)) * (1 / N) :=
    mul_nonneg (Finset.sum_nonneg fun i _ => mul_self_nonneg _) (by positivity)
  linarith

end Cert.Algebra

end
-- ==== Proof.Spec.lean ====
/-
  The radial-basis layer as one function of its arguments, and the law that joins its two spellings.

  For a batch p, a position l and an output channel o, with x the [8, 288, 16384] input, wv the [288, 64] weights
  (the [64, 32, 3, 3] array re-read row-major), b the [64] bias and γ the scale, the layer is

      exp( -γ · ‖x(p, ·, l) - wv(·, o)‖² ) + b(o),

  with the squared distance expanded as  ‖x‖² + ‖wv‖² - 2 ⟨x, wv⟩.  One program multiplies the expanded distance by -γ;
  the other folds 2γ into the weights and -γ into the weights' squared norm before its matrix product, and subtracts
  γ‖x‖² afterwards. The two exponents are equal when every entry and γ are real numbers: the step from one to the other
  distributes γ over a sum and over a difference, which an infinite entry would break.
-/
import Idealize.ShloMosaic.PureOps.Ideal
import Idealize.ShloMosaic.PureOps.Ideal.Laws
import Idealize.ShloMosaic.Lib.ValueIdx
import proofs.«175055_j28862180229634_2_alg».proof.Proof.LibRealEntries

noncomputable section

open scoped BigOperators

namespace Cert.Rbf

open Idealize.ShloMosaic Idealize.ShloMosaic.ValueIdx Cert.Algebra

/-- The input's shape, the re-read weights', the bias's and the result's. -/
abbrev SX : Shape := ⟨3, ![8, 288, 16384]⟩
abbrev SW : Shape := ⟨2, ![288, 64]⟩
abbrev SB : Shape := ⟨1, ![64]⟩
abbrev SO : Shape := ⟨3, ![8, 16384, 64]⟩

/-- The float word of 0.0 and of 2.0, as both programs spell them. -/
abbrev zeroLit : EReal := Ideal.ofBits .f32 0x00000000#32
abbrev twoLit : EReal := Ideal.ofBits .f32 0x40000000#32

theorem twoLit_eq : twoLit = ((2 : ℝ) : EReal) := by
  simp [twoLit, Ideal.ofBits, Ideal.ieee, -EReal.coe_mul]; norm_num

/-- The squared norm of column l of batch p of the input. -/
def xsq (x : SX.Idx → EReal) (p : Fin 8) (l : Fin 16384) : EReal := ∑ k : Fin 288, x (ix3 p k l) * x (ix3 p k l)
/-- The squared norm of column o of the weights. -/
def wsq (wv : SW.Idx → EReal) (o : Fin 64) : EReal := ∑ k : Fin 288, wv (ix2 k o) * wv (ix2 k o)
/-- The inner product of the two columns. -/
def xw (x : SX.Idx → EReal) (wv : SW.Idx → EReal) (p : Fin 8) (l : Fin 16384) (o : Fin 64) : EReal :=
  ∑ k : Fin 288, x (ix3 p k l) * wv (ix2 k o)

/-- The exponent with the squared distance expanded and then scaled by -γ. -/
def expoWhole (x : SX.Idx → EReal) (wv : SW.Idx → EReal) (γ : EReal) (p : Fin 8) (l : Fin 16384) (o : Fin 64) : EReal :=
  (-γ) * (((zeroLit + xsq x p l) + (zeroLit + wsq wv o)) - twoLit * xw x wv p l o)

/-- The exponent with the scale folded into the weights: the product against 2γ·wv, minus γ‖x‖², plus -γ‖wv‖². -/
def expoFolded (x : SX.Idx → EReal) (wv : SW.Idx → EReal) (γ : EReal) (p : Fin 8) (l : Fin 16384) (o : Fin 64) : EReal :=
  ((∑ k : Fin 288, x (ix3 p k l) * ((twoLit * γ) * wv (ix2 k o))) - γ * xsq x p l) + (-γ) * (zeroLit + wsq wv o)

/-- The layer at (p, l, o). -/
def rbfAt (x : SX.Idx → EReal) (wv : SW.Idx → EReal) (b : SB.Idx → EReal) (γ : EReal) (p : Fin 8) (l : Fin 16384) (o : Fin 64) : EReal :=
  Ideal.exp (expoWhole x wv γ p l o) + b (ix1 o)

/-- The layer as an array. -/
def rbf (x : SX.Idx → EReal) (wv : SW.Idx → EReal) (b : SB.Idx → EReal) (γ : EReal) : SO.Idx → EReal :=
  fun i => rbfAt x wv b γ (i 0) (i 1) (i 2)

/-- For real entries and a real scale the folded exponent is the whole one: γ distributes over the expanded distance. -/
theorem expoFolded_eq (x : SX.Idx → EReal) (wv : SW.Idx → EReal) (γ : EReal)
    (hx : ∀ i, IsReal (x i)) (hw : ∀ i, IsReal (wv i)) (hγ : IsReal γ) (p : Fin 8) (l : Fin 16384) (o : Fin 64) :
    expoFolded x wv γ p l o = expoWhole x wv γ p l o := by
  choose f hf using hx
  choose w hwv using hw
  obtain ⟨g, rfl⟩ := hγ
  unfold expoFolded expoWhole xsq wsq xw
  simp only [hf, hwv, twoLit_eq, zeroLit, Ideal.ofBits_zero_f32, ← EReal.coe_zero, ← EReal.coe_mul, ← coe_sum, ← EReal.coe_sub,
    ← EReal.coe_add, ← EReal.coe_neg]
  refine congrArg _ ?_
  have h1 : ∑ k : Fin 288, f (ix3 p k l) * (2 * g * w (ix2 k o)) = 2 * g * ∑ k : Fin 288, f (ix3 p k l) * w (ix2 k o) := by
    rw [Finset.mul_sum]; exact Finset.sum_congr rfl fun k _ => by ring
  rw [h1]; ring

end Cert.Rbf

end
-- ==== Proof.RefSide.lean ====
/-
  The reference program's result, read entry by entry, is the layer of Spec.lean with the squared distance expanded
  and scaled by -γ as a whole: its transposed input read at (p, l, k) is the input at (p, k, l); its two sums of
  squares run over the 288 rows of a column; its product contracts the same 288 rows; the scalar γ is negated
  and spread over the result; the bias is spread along the last axis.
-/
import proofs.«175055_j28862180229634_2_alg».proof.Proof.Gen.ReferenceIdeal.Read
import proofs.«175055_j28862180229634_2_alg».proof.Proof.Spec

noncomputable section

open scoped BigOperators

namespace Cert.Rbf.Ref

open Idealize.ShloMosaic Idealize.ShloMosaic.ValueIdx Cert.ReferenceIdeal Cert.ReferenceIdeal.Read

/-- Row k of column l of batch p, reached through the transpose and the reduction's index maps. -/
theorem idx_xsq (p : Fin 8) (l : Fin 16384) (o : Fin 64) (k : Fin 288) :
    idx_main_v2 (idx_main_v4 (idx_main_v5 (idx_main_v10 (ix3 p l o))) k) = ix3 p k l :=
  funext fun a => Fin.ext (by match a with | ⟨0, _⟩ => rfl | ⟨1, _⟩ => rfl | ⟨2, _⟩ => rfl)

/-- Row k of column o of the weights, reached through the two broadcasts and the reduction's index map. -/
theorem idx_wsq (p : Fin 8) (l : Fin 16384) (o : Fin 64) (k : Fin 288) :
    idx_main_v7 (idx_main_v8 (idx_main_v11 (ix3 p l o))) k = ix2 k o :=
  funext fun a => Fin.ext (by match a with | ⟨0, _⟩ => rfl | ⟨1, _⟩ => rfl)

/-- The product's left operand at contraction position k. -/
theorem idx_dot_l (p : Fin 8) (l : Fin 16384) (o : Fin 64) (k : Fin 288) :
    idx_main_v2 (lidx_main_v9 (ix3 p l o) k) = ix3 p k l :=
  funext fun a => Fin.ext (by match a with | ⟨0, _⟩ => rfl | ⟨1, _⟩ => rfl | ⟨2, _⟩ => rfl)

/-- The product's right operand at contraction position k. -/
theorem idx_dot_r (p : Fin 8) (l : Fin 16384) (o : Fin 64) (k : Fin 288) :
    ridx_main_v9 (ix3 p l o) k = ix2 k o :=
  funext fun a => Fin.ext (by match a with | ⟨0, _⟩ => rfl | ⟨1, _⟩ => rfl)

/-- The bias entry an output entry reads. -/
theorem idx_bias (p : Fin 8) (l : Fin 16384) (o : Fin 64) :
    idx_main_v20 (idx_main_v21 (ix3 p l o)) = ix1 o :=
  funext fun a => Fin.ext (by match a with | ⟨0, _⟩ => rfl)

/-- The reference's last stage is the layer, over the twice re-read weights. -/
theorem ref_eq (x0 : SX.Idx → EReal) (x1 : (⟨4, ![64, 32, 3, 3]⟩ : Shape).Idx → EReal) (x2 : SB.Idx → EReal) (x3 : (⟨0, ![]⟩ : Shape).Idx → EReal) :
    val_main_v22 (F := Ideal) x0 x1 x2 x3 = rbf x0 (val_main_v1 (F := Ideal) x1) x2 (x3 ix0) := by
  funext i
  obtain ⟨p, l, o, rfl⟩ : ∃ (p : Fin 8) (l : Fin 16384) (o : Fin 64), i = ix3 p l o := ⟨i 0, i 1, i 2, eq_ix3 i⟩
  simp only [val_main_v22_apply, val_main_v19_apply, val_main_v18_apply, val_main_v17_apply, val_main_v16_apply,
    val_main_v15_apply, val_main_v12_apply, val_main_v10_apply, val_main_v5_apply, val_main_v4_apply, val_main_v11_apply,
    val_main_v8_apply, val_main_v7_apply, val_main_v14_apply, val_main_v13_apply, val_main_cst_1_apply, val_main_v9_apply,
    val_main_v21_apply, val_main_v20_apply, val_main_v3_apply, val_main_v2_apply, val_main_v6_apply, val_main_cst_apply,
    val_main_cst_0_apply, idx_xsq, idx_wsq, idx_dot_l, idx_dot_r, idx_bias,
    Ideal.mulf_def, Ideal.addf_def, Ideal.subf_def, Ideal.hostNegf_def, Ideal.negf_def, Ideal.hostUnary_exp_def, Ideal.ofBits_def]
  rfl

end Cert.Rbf.Ref

end
-- ==== Proof.LibColReduce.lean ====
/-
  Reductions of an n x k array along its columns, read at a column given by its coordinate. The reduced index (c) with
  the outer coordinate s put back is the array index (s, c); so a sum over the first axis at c is the finite sum over s
  of the entries (s, c), for the vector unit's reduction and for the host's (after its initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Column c's reduced index with the outer coordinate s inserted is (s, c). -/
theorem lift_col {n k : ℕ} (h : (⟨2, ![n, k]⟩ : Shape).Reduces [0] (⟨1, ![k]⟩ : Shape)) (c : Fin k)
    (s : Fin ((⟨2, ![n, k]⟩ : Shape).size 0)) : h.lift (ix1 c) s = ix2 (⟨s.val, s.isLt⟩ : Fin n) c := by
  funext a; apply Fin.ext
  fin_cases a <;> rfl

/-- A vector-unit sum over the first axis, at column c: the sum of the column's entries. -/
theorem multiReduction_add_col {n k : ℕ} {φ : FTy} (src : FVec Ideal (⟨2, ![n, k]⟩ : Shape) φ) (acc : BitVec φ.bits)
    (h : (⟨2, ![n, k]⟩ : Shape).Reduces [0] (⟨1, ![k]⟩ : Shape)) (hφ : FKind.Formats φ) (hacc : acc = FKind.add.neutral φ hφ) (c : Fin k) :
    multiReduction .add [0] (⟨1, ![k]⟩ : Shape) src acc h hφ hacc (ix1 c) = ∑ s : Fin n, (src (ix2 s c) : EReal) :=
  (Ideal.multiReduction_add_single src acc h hφ hacc (ix1 c)).trans
    (Finset.sum_congr rfl fun s _ => congrArg src (lift_col h c s))

/-- The host's sum over the first axis, at column c: the initial value plus the sum of the column's entries. -/
theorem hostReduceAdd_col {n k : ℕ} (h' : (⟨2, ![n, k]⟩ : Shape).ReducesTo [0] (⟨1, ![k]⟩ : Shape))
    (h : (⟨2, ![n, k]⟩ : Shape).Reduces [0] (⟨1, ![k]⟩ : Shape)) (x : (⟨2, ![n, k]⟩ : Shape).Idx → EReal) (init : EReal) (c : Fin k) :
    Ideal.hostReduceAdd h' x init (ix1 c) = init + ∑ s : Fin n, x (ix2 s c) :=
  (Ideal.hostReduceAdd_single h' h x init (ix1 c)).trans
    (congrArg (init + ·) (Finset.sum_congr rfl fun s _ => congrArg x (lift_col h c s)))

end Idealize.ShloMosaic.ValueIdx

end
-- ==== Proof.HostPrefix.lean ====
/-
  What the region finds in the four small arrays the host prepares before the kernel is launched.

  With wv the [64, 32, 3, 3] weights re-read row-major as [288, 64] and γ the scale:
  the kernel's weight block is (2·γ)·wv, narrowed to a shorter float format (no change over the extended reals);
  its first [1, 64] row holds (-γ)·(0 + Σ_k wv(k, o)²), the scaled squared norm of column o;
  its second [1, 64] row is the bias; its [1, 1] scalar is γ.
-/
import proofs.«175055_j28862180229634_2_alg».proof.Proof.Gen.KernelIdeal.Frame
import proofs.«175055_j28862180229634_2_alg».proof.Proof.Spec
import proofs.«175055_j28862180229634_2_alg».proof.Proof.LibColReduce
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.Rbf.Host

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The weights re-read as [288, 64]. -/
def wv (c : Dev nD) : SW.Idx → EReal :=
  shapeCast S288x64 (shapeCast S18432 (m ((c : Thread nD τ).loc main_arg1)) shapeCasts_S64x32x3x3_S18432) shapeCasts_S18432_S288x64

/-- The scale. -/
def gam (c : Dev nD) : EReal := (m ((c : Thread nD τ).loc main_arg3) : S_.Idx → EReal) ix0

theorem V_v7 (c : Dev nD) : (V m c main_v7 : S288x64.Idx → EReal)
    = truncf .bf16 (mulf (broadcastInDim S288x64 ![] bcast_S_S288x64
        (mulf (constant (F := Ideal) S_ .f32 0x40000000#32) (m ((c : Thread nD τ).loc main_arg3)))) (wv m c)) bitsLt_bf16_f32 := by
  dsimp only [Gen.V, Gen.hostOps0]
  after_results
  rfl

theorem V_v11 (c : Dev nD) : (V m c main_v11 : S1x64.Idx → EReal)
    = shapeCast S1x64 (mulf (broadcastInDim S64 ![] bcast_S_S64 (Host.negf (m ((c : Thread nD τ).loc main_arg3))))
        (Host.reduceAdd (mulf (wv m c) (wv m c)) (constant (F := Ideal) S_ .f32 0x00000000#32) reducesTo_S288x64_S64_d0 h_S_))
        shapeCasts_S64_S1x64 := by
  dsimp only [Gen.V, Gen.hostOps0]
  after_results
  rfl

theorem V_v12 (c : Dev nD) : (V m c main_v12 : S1x64.Idx → EReal)
    = shapeCast S1x64 (m ((c : Thread nD τ).loc main_arg2)) shapeCasts_S64_S1x64 := by
  dsimp only [Gen.V, Gen.hostOps0]
  after_results
  rfl

theorem V_v13 (c : Dev nD) : (V m c main_v13 : S1x1.Idx → EReal)
    = shapeCast S1x1 (m ((c : Thread nD τ).loc main_arg3)) shapeCasts_S_S1x1 := by
  dsimp only [Gen.V, Gen.hostOps0]
  after_results
  rfl

/-- A scalar spread over any shape reads the scalar. -/
theorem bcast_scalar_apply {t : Shape} (h : S_.BroadcastsInDim t (![] : Fin 0 → Fin t.rank)) (x : S_.Idx → EReal) (j : t.Idx) :
    broadcastInDim t ![] h x j = x ix0 :=
  broadcastInDim_apply _ h x j ix0 (fun a => a.elim0)

/-- The weight block at (k, o). -/
theorem V_v7_apply (c : Dev nD) (k : Fin 288) (o : Fin 64) :
    (V m c main_v7 : S288x64.Idx → EReal) (ix2 k o) = (twoLit * gam m c) * wv m c (ix2 k o) := by
  rw [V_v7]
  rw [truncf_apply, mulf_apply, bcast_scalar_apply, mulf_apply, constant_apply]
  rfl

/-- The scaled squared norm of column o. -/
theorem V_v11_apply (c : Dev nD) (u : Fin 1) (o : Fin 64) :
    (V m c main_v11 : S1x64.Idx → EReal) (ix2 u o) = (-(gam m c)) * (zeroLit + wsq (wv m c) o) := by
  rw [V_v11, shapeCast_a_1a_apply, mulf_apply, bcast_scalar_apply]
  simp only [Host.reduceAdd, Ideal.hostReduceAdd_def]
  rw [hostReduceAdd_col reducesTo_S288x64_S64_d0 (by decide)]
  rfl

/-- The bias at o. -/
theorem V_v12_apply (c : Dev nD) (u : Fin 1) (o : Fin 64) :
    (V m c main_v12 : S1x64.Idx → EReal) (ix2 u o) = (m ((c : Thread nD τ).loc main_arg2) : S64.Idx → EReal) (ix1 o) := by
  rw [V_v12, shapeCast_a_1a_apply]

/-- The scale, as the [1, 1] block holds it. -/
theorem V_v13_apply (c : Dev nD) (j : S1x1.Idx) : (V m c main_v13 : S1x1.Idx → EReal) j = gam m c := by
  rw [V_v13]
  unfold shapeCast gam
  exact congrArg _ (funext fun a => a.elim0)

end Cert.Rbf.Host

end
-- ==== Proof.LibDotCols.lean ====
/-
  A matrix product that contracts the FIRST axis of both operands, read at a row and a column, for operands of any float
  formats: the transpose of a K x M array times a K x N array. For dimension numbers that contract the left operand's
  first axis with the right operand's first and batch nothing — stated by the four coordinate facts of the operand
  indices — the contraction at (a, b) is the finite sum over r of left (r, a) * right (r, b). Two readings rest on it: a
  matrix-unit product into the zero accumulator, and the host's dot_general; at the extended reals both are that sum,
  whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a K x M array, transposed, times a K x N array. -/
structure ColsDot {M K N : ℕ} (d : DotDims (⟨2, ![K, M]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (q ⟨0, by omega⟩).val
  l1 : ∀ (j : (⟨2, ![M, N]⟩ : Shape).Idx) (q : d.contr.Idx), (d.lhsIdx j q 1).val = (j 0).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of such a product at (a, b), re-indexed by the shared row position r. -/
theorem contraction_cols {M K N : ℕ} {d : DotDims (⟨2, ![K, M]⟩ : Shape) (⟨2, ![K, N]⟩ : Shape) (⟨2, ![M, N]⟩ : Shape)}
    (hd : ColsDot d) (lhs : (⟨2, ![K, M]⟩ : Shape).Idx → EReal) (rhs : (⟨2, ![K, N]⟩ : Shape).Idx → EReal) (a : Fin M) (b : Fin N) :
    (∑ q : d.contr.Idx, lhs (d.lhsIdx (ix2 a b) q) * rhs (d.rhsIdx (ix2 a b) q)) = ∑ r : Fin K, lhs (ix2 r a) * rhs (ix2 r b) := by
  rw [← Equiv.sum_comp (contrEquiv1 d K hd.rank hd.size).symm]
  refine Finset.sum_congr rfl fun k _ => ?_
  have hk := contrEquiv1_symm_val d K hd.rank hd.size k
  have el : d.lhsIdx (ix2 a b) ((contrEquiv1 d K hd.rank hd.size).symm k) = ix2 k a := funext fun ax => Fin.ext (by
    match ax with
    | ⟨0, _⟩ => exact (hd.l0 _ _).trans hk
    | ⟨1, _⟩ => exact hd.l1 _ _)
  have er : d.rhsIdx (ix2 a b) ((contrEquiv1 d K hd.rank hd.size).symm k) = ix2 k b := funext fun ax => Fin.ext (by
    match ax with
    | ⟨0, _⟩ => exact (hd.r0 _ _).trans hk
    | ⟨1, _⟩ => exact hd.r1 _ _)
  rw [el, er]

/-- A matrix-unit product of a K x M array, transposed, by a K x N array into zeros, at (a, b): the sum over the K shared
    row positions. -/
theorem matmul_zero_cols_any {M K N : ℕ} {φ₁ φ₂ : FTy} {d : DotDims (⟨2, ![K, M]⟩ : Shape) (⟨2, ![K, N]⟩ : Shape) (⟨2, ![M, N]⟩ : Shape)}
    (hd : ColsDot d) (prec : Option ContractPrecision)
    (lhs : FVec Ideal (⟨2, ![K, M]⟩ : Shape) φ₁) (rhs : FVec Ideal (⟨2, ![K, N]⟩ : Shape) φ₂) (a : Fin M) (b : Fin N) :
    FloatOps.matmul d prec lhs rhs (constant (⟨2, ![M, N]⟩ : Shape) .f32 0x00000000#32) (ix2 a b)
      = ∑ r : Fin K, (lhs (ix2 r a) : EReal) * (rhs (ix2 r b) : EReal) := by
  rw [Ideal.matmul_constant_zero_apply]
  exact contraction_cols hd lhs rhs a b

/-- The host's dot_general of a K x M array, transposed, by a K x N array, at (a, b): the same sum. -/
theorem dotGeneral_cols_any {M K N : ℕ} {φ₁ φ₂ : FTy} {d : DotDims (⟨2, ![K, M]⟩ : Shape) (⟨2, ![K, N]⟩ : Shape) (⟨2, ![M, N]⟩ : Shape)}
    (hd : ColsDot d) (prec : Option ContractPrecision) (sched : HostSchedule)
    (lhs : FVec Ideal (⟨2, ![K, M]⟩ : Shape) φ₁) (rhs : FVec Ideal (⟨2, ![K, N]⟩ : Shape) φ₂) (a : Fin M) (b : Fin N) :
    FloatOps.dotGeneral d prec sched lhs rhs (ix2 a b)
      = ∑ r : Fin K, (lhs (ix2 r a) : EReal) * (rhs (ix2 r b) : EReal) := by
  rw [Ideal.dotGeneral_apply]
  exact contraction_cols hd lhs rhs a b

end Idealize.ShloMosaic.ValueIdx

end
-- ==== Proof.KernelBody.lean ====
/-
  One block of the kernel's output, entry by entry.

  The body works on a [1, 288, 4096] slab X of the input (one batch, all 288 rows, 4096 positions), a [288, 64] weight
  block W, two [1, 64] rows n and b, and a [1, 1] scalar g. At row r and column o of its [1, 4096, 64] result it leaves

      exp( Σ_k X(0, k, r) · W(k, o)  -  g(0, 0) · Σ_k X(0, k, r)²  +  n(0, o) ) + b(0, o):

  the sum of squares runs down the 288 rows of column r (a reduction over the leading axis, recast as a row and
  transposed to a column, then spread over the 64 output columns); the product contracts the leading axis of both
  operands (the slab is used transposed), into a zero accumulator, and narrowing the slab to a shorter float format
  changes nothing over the extended reals.
-/
import proofs.«175055_j28862180229634_2_alg».proof.Proof.Gen.KernelIdeal.Skeleton
import proofs.«175055_j28862180229634_2_alg».proof.Proof.LibColReduce
import proofs.«175055_j28862180229634_2_alg».proof.Proof.LibDotCols
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Rbf.Body

open Idealize.ShloMosaic Idealize.ShloMosaic.ValueIdx Cert.KernelIdeal Cert.KernelIdeal.Gen

/-- The elementwise exponential read at an index. -/
theorem exp_apply {s : Shape} {φ : FTy} (a : FVec Ideal s φ) (i : s.Idx) : exp a i = Ideal.exp (a i) := rfl

/-- An [a, 1] column spread over b columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's product contracts the first axis of the [288, 4096] slab with the first axis of the [288, 64] weights. -/
theorem colsDot : ColsDot dot_S288x4096_S288x64_S4096x64_0_0_1_1_n_n where
  rank := rfl
  size := rfl
  l0 := fun j q => dot_S288x4096_S288x64_S4096x64_0_0_1_1_n_n.lhsIdx_val_of_single rfl j q
  l1 := fun j q => by
    unfold DotDims.lhsIdx
    rw [dif_neg (show ¬(1 : Fin S288x4096.rank) ∈ dot_S288x4096_S288x64_S4096x64_0_0_1_1_n_n.lhsBatch by decide),
      dif_pos (show (1 : Fin S288x4096.rank) ∈ dot_S288x4096_S288x64_S4096x64_0_0_1_1_n_n.lhsNonContracting by decide)]
    rfl
  r0 := fun j q => dot_S288x4096_S288x64_S4096x64_0_0_1_1_n_n.rhsIdx_val_of_single rfl j q
  r1 := fun j q => by
    unfold DotDims.rhsIdx
    rw [dif_neg (show ¬(1 : Fin S288x64.rank) ∈ dot_S288x4096_S288x64_S4096x64_0_0_1_1_n_n.rhsBatch by decide),
      dif_pos (show (1 : Fin S288x64.rank) ∈ dot_S288x4096_S288x64_S4096x64_0_0_1_1_n_n.rhsNonContracting by decide)]
    rfl

/-- The sum down the 288 rows of column r, from the zero word. -/
theorem sum_col (src : FVec Ideal S288x4096 .f32) (hφ : FKind.Formats .f32)
    (hacc : (0x00000000#32 : BitVec FTy.f32.bits) = 0x00000000#32) (r : Fin 4096) :
    multiReduction .add [0] S4096 src 0x00000000#32 reduces_S288x4096_S4096 hφ hacc (ix1 r) = ∑ k : Fin 288, src (ix2 k r) :=
  multiReduction_add_col src 0x00000000#32 reduces_S288x4096_S4096 hφ hacc r

/-- The one entry of a [1, 1] block. -/
theorem extract00 (v2 : Vec Ideal S1x1 .f32) (h : ∀ a, (![0, 0] : Fin 2 → Nat) a < S1x1.size a) :
    extractAt ![0, 0] v2 h = v2 (ix2 (0 : Fin 1) (0 : Fin 1)) :=
  congrArg v2 (funext fun a => Fin.ext (by match a with | ⟨0, _⟩ => rfl | ⟨1, _⟩ => rfl))

/-- The stored block at (u, r, o), from the five loaded blocks. -/
theorem pay_apply (v0 : Vec Ideal S1x288x4096 .f32) (v2 : Vec Ideal S1x1 .f32) (v9 : Vec Ideal S288x64 .bf16)
    (v16 v21 : Vec Ideal S1x64 .f32) (u : Fin 1) (r : Fin 4096) (o : Fin 64) :
    k0_pay1 v0 v2 v9 v16 v21 (ix3 u r o)
      = Ideal.exp (((∑ k : Fin 288, v0 (ix3 (0 : Fin 1) k r) * v9 (ix2 k o))
            - v2 (ix2 (0 : Fin 1) (0 : Fin 1)) * ∑ k : Fin 288, v0 (ix3 (0 : Fin 1) k r) * v0 (ix3 (0 : Fin 1) k r))
          + v16 (ix2 (0 : Fin 1) o)) + v21 (ix2 (0 : Fin 1) o) := by
  unfold k0_pay1
  rw [shapeCast_ab_1ab_apply]
  simp only [addf_apply, subf_apply, mulf_apply, broadcast_apply, shapeCast_self, broadcastTo_1b_ab_apply, exp_apply,
    broadcastTo_a1_ab_apply]
  rw [transpose_ix2_apply, shapeCast_a_1a_apply, sum_col, extract00]
  unfold matmul
  rw [matmul_zero_cols_any colsDot]
  simp only [mulf_apply, truncf_apply, shapeCast_1ab_ab_apply]

end Cert.Rbf.Body

end
-- ==== Proof.Blocks.lean ====
/-
  From blocks to the whole array.

  The grid has 8 x 4 points; point (p, q) reads batch p, positions 4096·q … 4096·q + 4095 of the input (all 288 rows) and
  writes rows 4096·q … 4096·q + 4095 of batch p of the result (all 64 columns); the four small arrays are read whole at
  every point. What a point writes back is therefore its block of the layer of Spec.lean — with the exponent in its folded
  spelling, which for real entries is the whole one — and the 32 blocks tile the result.
-/
import proofs.«175055_j28862180229634_2_alg».proof.Proof.Gen.KernelIdeal.Value
import proofs.«175055_j28862180229634_2_alg».proof.Proof.Spec
import proofs.«175055_j28862180229634_2_alg».proof.Proof.KernelBody
import proofs.«175055_j28862180229634_2_alg».proof.Proof.HostPrefix
import Idealize.ShloMosaic.Lib.Pipeline.Value

noncomputable section

open scoped BigOperators

namespace Cert.Rbf.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Algebra Cert.Rbf.Host Cert.Rbf.Body

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices over the grid: the input slab moves with the output block (batch with batch, positions with rows);
    the small arrays' blocks stay at the origin; the output's batch index is below 8 and its row-block index below 4. -/
theorem idx_facts : ∀ t : Fin cfg0.N,
    win0_0.index t (0 : Fin 3) = win0_5.index t (0 : Fin 3) ∧ win0_0.index t (1 : Fin 3) = 0
    ∧ win0_0.index t (2 : Fin 3) = win0_5.index t (1 : Fin 3) ∧ win0_5.index t (2 : Fin 3) = 0
    ∧ win0_5.index t (0 : Fin 3) ≤ 7 ∧ win0_5.index t (1 : Fin 3) ≤ 3
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every (batch, row-block) pair is some point's output block. -/
theorem idx_onto : ∀ (q0 : Fin 8) (q1 : Fin 4), ∃ t : Fin cfg0.N, win0_5.index t = ![q0.val, q1.val, 0] :=
  (by decide +kernel : ∀ (q0 : Fin 8) (q1 : Fin 4), ∃ t : Fin grid0.N, win0_5.index t = ![q0.val, q1.val, 0])

/-- The input slab at a point: row k, position r of the slab is row k, position l of batch p. -/
theorem iblk0_apply (c : Dev nD) (t : Fin cfg0.N) (k : Fin 288) (r : Fin 4096) (p : Fin 8) (l : Fin 16384)
    (hp : p.val = win0_5.index t (0 : Fin 3)) (hl : l.val = win0_5.index t (1 : Fin 3) * 4096 + r.val) :
    (iblk m c 0 t : Vec Ideal S1x288x4096 .f32) (ix3 (0 : Fin 1) k r)
      = (m ((c : Thread nD τ).loc main_arg0) : SX.Idx → EReal) (ix3 p k l) := by
  obtain ⟨e0, e1, e2, -⟩ := idx_facts t
  show V m c main_arg0 (((cfg0.win 0).blk t).view.emb (ix3 (0 : Fin 1) k r)) = _
  rw [V_main_arg0]
  refine congrArg _ (funext fun a => Fin.ext ?_)
  match a with
  | ⟨0, _⟩ => show win0_0.index t (0 : Fin 3) * 1 + 1 * 0 = p.val; omega
  | ⟨1, _⟩ => show win0_0.index t (1 : Fin 3) * 288 + 1 * k.val = k.val; omega
  | ⟨2, _⟩ => show win0_0.index t (2 : Fin 3) * 4096 + 1 * r.val = l.val; omega

/-- The weight block at a point is the whole prepared array: the weights scaled by 2γ. -/
theorem iblk1_apply (c : Dev nD) (t : Fin cfg0.N) (k : Fin 288) (o : Fin 64) :
    (iblk m c 1 t : Vec Ideal S288x64 .bf16) (ix2 k o) = (twoLit * gam m c) * wv m c (ix2 k o) := by
  obtain ⟨-, -, -, -, -, -, e0, e1, -⟩ := idx_facts t
  refine Eq.trans ?_ (V_v7_apply m c k o)
  show V m c main_v7 (((cfg0.win 1).blk t).view.emb (ix2 k o)) = _
  refine congrArg _ (funext fun a => Fin.ext ?_)
  match a with
  | ⟨0, _⟩ => show win0_1.index t (0 : Fin 2) * 288 + 1 * k.val = k.val; omega
  | ⟨1, _⟩ => show win0_1.index t (1 : Fin 2) * 64 + 1 * o.val = o.val; omega

/-- The first row block at a point is the whole prepared row: the scaled squared norms of the weights' columns. -/
theorem iblk2_apply (c : Dev nD) (t : Fin cfg0.N) (o : Fin 64) :
    (iblk m c 2 t : Vec Ideal S1x64 .f32) (ix2 (0 : Fin 1) o) = (-(gam m c)) * (zeroLit + wsq (wv m c) o) := by
  obtain ⟨-, -, -, -, -, -, -, -, e0, e1, -⟩ := idx_facts t
  refine Eq.trans ?_ (V_v11_apply m c (0 : Fin 1) o)
  show V m c main_v11 (((cfg0.win 2).blk t).view.emb (ix2 (0 : Fin 1) o)) = _
  refine congrArg _ (funext fun a => Fin.ext ?_)
  match a with
  | ⟨0, _⟩ => show win0_2.index t (0 : Fin 2) * 1 + 1 * 0 = 0; omega
  | ⟨1, _⟩ => show win0_2.index t (1 : Fin 2) * 64 + 1 * o.val = o.val; omega

/-- The second row block at a point is the whole prepared row: the bias. -/
theorem iblk3_apply (c : Dev nD) (t : Fin cfg0.N) (o : Fin 64) :
    (iblk m c 3 t : Vec Ideal S1x64 .f32) (ix2 (0 : Fin 1) o)
      = (m ((c : Thread nD τ).loc main_arg2) : S64.Idx → EReal) (ix1 o) := by
  obtain ⟨-, -, -, -, -, -, -, -, -, -, e0, e1, -⟩ := idx_facts t
  refine Eq.trans ?_ (V_v12_apply m c (0 : Fin 1) o)
  show V m c main_v12 (((cfg0.win 3).blk t).view.emb (ix2 (0 : Fin 1) o)) = _
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * o.val = o.val; omega

/-- The scalar block at a point holds the scale. -/
theorem iblk4_apply (c : Dev nD) (t : Fin cfg0.N) (j : S1x1.Idx) :
    (iblk m c 4 t : Vec Ideal S1x1 .f32) j = gam m c := by
  show V m c main_v13 (((cfg0.win 4).blk t).view.emb j) = _
  exact V_v13_apply m c _

/-- What a point writes back is its block of the layer. -/
theorem flushed_eq (c : Dev nD) (t : Fin cfg0.N)
    (hx : ∀ i, IsReal ((m ((c : Thread nD τ).loc main_arg0) : SX.Idx → EReal) i)) (hw : ∀ i, IsReal (wv m c i)) (hγ : IsReal (gam m c)) :
    (dats m 0 c).flushed 5 t = ((cfg0.win 5).blk t).view.read (Elt Ideal)
      (rbf (m ((c : Thread nD τ).loc main_arg0)) (wv m c) (m ((c : Thread nD τ).loc main_arg2)) (gam m c)) := by
  rw [Value.flushed5]
  unfold out0_5
  rw [View.canon_unit_zero hz3]
  simp only [View.ld_unit_zero (S := S1x288x4096) hz3, View.ld_unit_zero (S := S288x64) hz2, View.ld_unit_zero (S := S1x64) hz2,
    View.ld_unit_zero (S := S1x1) hz2]
  funext j
  obtain ⟨u, r, o, rfl⟩ : ∃ (u : Fin 1) (r : Fin 4096) (o : Fin 64), j = ix3 u r o := ⟨j 0, j 1, j 2, eq_ix3 j⟩
  obtain ⟨-, -, -, e3, e4, e5, -⟩ := idx_facts t
  have hr : r.val < 4096 := r.isLt
  have hu : u.val = 0 := by omega
  obtain ⟨p, hp⟩ : ∃ p : Fin 8, p.val = win0_5.index t (0 : Fin 3) := ⟨⟨win0_5.index t (0 : Fin 3), by omega⟩, rfl⟩
  obtain ⟨l, hl⟩ : ∃ l : Fin 16384, l.val = win0_5.index t (1 : Fin 3) * 4096 + r.val :=
    ⟨⟨win0_5.index t (1 : Fin 3) * 4096 + r.val, by omega⟩, rfl⟩
  have hemb : ((cfg0.win 5).blk t).view.emb (ix3 u r o) = ix3 p l o := by
    funext a; apply Fin.ext
    match a with
    | ⟨0, _⟩ => show win0_5.index t (0 : Fin 3) * 1 + 1 * u.val = p.val; omega
    | ⟨1, _⟩ => show win0_5.index t (1 : Fin 3) * 4096 + 1 * r.val = l.val; omega
    | ⟨2, _⟩ => show win0_5.index t (2 : Fin 3) * 64 + 1 * o.val = o.val; omega
  show k0_pay1 (iblk m c 0 t) (iblk m c 4 t) (iblk m c 1 t) (iblk m c 2 t) (iblk m c 3 t) (ix3 u r o)
    = rbf (m ((c : Thread nD τ).loc main_arg0)) (wv m c) (m ((c : Thread nD τ).loc main_arg2)) (gam m c)
        (((cfg0.win 5).blk t).view.emb (ix3 u r o))
  rw [hemb]
  refine (pay_apply (iblk m c 0 t) (iblk m c 4 t) (iblk m c 1 t) (iblk m c 2 t) (iblk m c 3 t) u r o).trans ?_
  simp only [iblk0_apply m c t _ r p l hp hl, iblk1_apply m c t, iblk2_apply m c t, iblk3_apply m c t, iblk4_apply m c t]
  show Ideal.exp (expoFolded (m ((c : Thread nD τ).loc main_arg0)) (wv m c) (gam m c) p l o)
      + (m ((c : Thread nD τ).loc main_arg2) : SB.Idx → EReal) (ix1 o)
    = Ideal.exp (expoWhole (m ((c : Thread nD τ).loc main_arg0)) (wv m c) (gam m c) p l o)
      + (m ((c : Thread nD τ).loc main_arg2) : SB.Idx → EReal) (ix1 o)
  rw [expoFolded_eq _ _ _ hx hw hγ]

/-- An index of the result is in a point's block iff each coordinate is in the block's range on its axis. -/
theorem mem_blk (t : Fin cfg0.N) (i : S8x16384x64.Idx) :
    i ∈ ((cfg0.win 5).blk t).view.set ↔ ∀ a : Fin 3, win0_5.index t a * S1x4096x64.size a ≤ (i a).val
      ∧ (i a).val < win0_5.index t a * S1x4096x64.size a + S1x4096x64.size a := by
  show i ∈ ((View.whole main_v14).slice (win0_5.rect t)).set ↔ _
  rw [View.set_slice_whole, Rect.mem_set_unit]
  exact Iff.rfl

/-- The 32 blocks tile the result: the block holding (p, l, o) is that of batch p and row block l / 4096. -/
theorem cover (i : S8x16384x64.Idx) : ∃ t : Fin cfg0.N, (cfg0.win 5).flush t = true ∧ i ∈ ((cfg0.win 5).blk t).view.set := by
  have hi0 : (i 0).val < 8 := (i 0).isLt
  have hi1 : (i 1).val < 16384 := (i 1).isLt
  have hi2 : (i 2).val < 64 := (i 2).isLt
  obtain ⟨t, ht⟩ := idx_onto ⟨(i 0).val, hi0⟩ ⟨(i 1).val / 4096, by omega⟩
  have q0 : win0_5.index t (0 : Fin 3) = (i 0).val := congrFun ht 0
  have q1 : win0_5.index t (1 : Fin 3) = (i 1).val / 4096 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 4096 ≤ (i 1).val ∧ (i 1).val < win0_5.index t (1 : Fin 3) * 4096 + 4096; omega
  | ⟨2, _⟩ => show win0_5.index t (2 : Fin 3) * 64 ≤ (i 2).val ∧ (i 2).val < win0_5.index t (2 : Fin 3) * 64 + 64; omega

/-- After the run the result array is the layer. -/
theorem final (c : Dev nD)
    (hx : ∀ i, IsReal ((m ((c : Thread nD τ).loc main_arg0) : SX.Idx → EReal) i)) (hw : ∀ i, IsReal (wv m c i)) (hγ : IsReal (gam m c)) :
    (dats m 0 c).arrAt 5 cfg0.N
      = rbf (m ((c : Thread nD τ).loc main_arg0)) (wv m c) (m ((c : Thread nD τ).loc main_arg2)) (gam m c) :=
  (dats m 0 c).arrAt_eq_of_cover 5 _ (fun t _ => flushed_eq m c t hx hw hγ) cover

end Cert.Rbf.Blocks

end
-- ==== Proof.Finite.lean ====
/-
  From the precondition to real entries. The precondition says, array by array, that every entry's absolute value is
  below +inf, and takes the conjunction of the four answers. An extended real whose absolute value max(x, -x) is below
  +inf is neither infinity, so it is a real number.
-/
import proofs.«175055_j28862180229634_2_alg».proof.Pre_finite_inputs
import proofs.«175055_j28862180229634_2_alg».proof.Proof.LibRealEntries
import Idealize.ShloMosaic.Lib.ReduceAll
import Idealize.ShloMosaic.Lib.ValueIdx
import Idealize.ShloMosaic.PureOps.Ideal.Laws

noncomputable section

namespace Cert.Rbf.Finite

open Idealize.ShloMosaic Idealize.ShloMosaic.ValueIdx Cert.Algebra Cert.Pre_finite_inputs

instance : Subsingleton S_.Idx := ⟨fun _ _ => funext fun d => d.elim0⟩

/-- The word the precondition compares against denotes +inf. -/
theorem ofBits_inf : Ideal.ofBits .f32 0x7F800000#32 = ⊤ := by simp [Ideal.ofBits, Ideal.ieee]

/-- An extended real whose absolute value compares below +inf is a real number. -/
theorem isReal_of_lt_inf (x : EReal) (h : Ideal.cmp .olt (max x (-x)) (Ideal.ofBits .f32 0x7F800000#32) = 1#1) : IsReal x := by
  rw [ofBits_inf] at h
  have h' : max x (-x) < ⊤ := by
    by_contra hn
    simp only [Ideal.cmp, decide_eq_false hn] at h
    exact absurd h (by decide)
  induction x using EReal.rec with
  | bot => simp at h'
  | coe r => exact ⟨r, rfl⟩
  | top => simp at h'

variable [Facts]

/-- Under the precondition every entry of every float argument is a real number. -/
theorem real_of_pre (a0 : FVec Ideal S8x288x16384 .f32) (a1 : FVec Ideal S64x32x3x3 .f32) (a2 : FVec Ideal S64 .f32)
    (a3 : FVec Ideal S_ .f32) (h : fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => isReal_of_lt_inf _ (Host.reduce_andi_all _ _ _ _ _ h1 i),
    fun i => isReal_of_lt_inf _ (Host.reduce_andi_all _ _ _ _ _ h2 i),
    fun i => isReal_of_lt_inf _ (Host.reduce_andi_all _ _ _ _ _ h3 i),
    fun i => isReal_of_lt_inf _ (Host.reduce_andi_all _ _ _ _ _ h4 i)⟩

end Cert.Rbf.Finite

end
-- ==== Proof.lean ====
/-
  The radial-basis layer, kernel against reference, over the extended reals.

  Both programs compute, for a batch p, a position l and an output channel o,

      exp( -γ · ‖x(p, ·, l) - wv(·, o)‖² ) + b(o),      ‖x - w‖² = ‖x‖² + ‖w‖² - 2⟨x, w⟩,

  with wv the [64, 32, 3, 3] weights re-read row-major as [288, 64]. The reference expands the squared distance and
  multiplies the whole by -γ. The kernel's program folds 2γ into the weights and -γ into ‖wv(·, o)‖² on the host, and its
  body, on one [288, 4096] slab of one batch at a time, takes the product against the folded weights, subtracts γ‖x‖²
  and adds the folded norm. The two exponents are equal when x, the weights and γ are real numbers — γ is distributed
  over a sum and a difference — and that is where the precondition (every float input finite) is used. The order and
  grouping of the sums, the tiling into 8 x 4 blocks and the narrowing of the product's operands to a shorter float
  format make no difference over the extended reals.

  The modules: Spec (the layer as one function, and the law between the two exponents), RefSide (the reference is the
  layer), KernelBody (one block of the kernel's output, entry by entry), HostPrefix (the small arrays the host prepares),
  Blocks (the blocks tile the result), Finite (the precondition gives real entries).
-/
import proofs.«175055_j28862180229634_2_alg».proof.Defs
import proofs.«175055_j28862180229634_2_alg».proof.Proof.Gen.Kernel
import proofs.«175055_j28862180229634_2_alg».proof.Proof.Gen.Kernel.Skeleton
import proofs.«175055_j28862180229634_2_alg».proof.Proof.Gen.Kernel.Launch
import proofs.«175055_j28862180229634_2_alg».proof.Proof.Gen.Kernel.Points
import proofs.«175055_j28862180229634_2_alg».proof.Proof.Gen.Kernel.Frame
import proofs.«175055_j28862180229634_2_alg».proof.Proof.Gen.KernelIdeal
import proofs.«175055_j28862180229634_2_alg».proof.Proof.Gen.KernelIdeal.Skeleton
import proofs.«175055_j28862180229634_2_alg».proof.Proof.Gen.KernelIdeal.Launch
import proofs.«175055_j28862180229634_2_alg».proof.Proof.Gen.KernelIdeal.Points
import proofs.«175055_j28862180229634_2_alg».proof.Proof.Gen.KernelIdeal.Frame
import proofs.«175055_j28862180229634_2_alg».proof.Proof.Gen.ReferenceIdeal
import proofs.«175055_j28862180229634_2_alg».proof.Proof.Gen.Pre_finite_inputs
import proofs.«175055_j28862180229634_2_alg».proof.Proof.Gen.KernelIdeal.Value
import proofs.«175055_j28862180229634_2_alg».proof.Proof.Gen.ReferenceIdeal.Run
import proofs.«175055_j28862180229634_2_alg».proof.Proof.Gen.ReferenceIdeal.Read
import proofs.«175055_j28862180229634_2_alg».proof.Proof.Spec
import proofs.«175055_j28862180229634_2_alg».proof.Proof.RefSide
import proofs.«175055_j28862180229634_2_alg».proof.Proof.HostPrefix
import proofs.«175055_j28862180229634_2_alg».proof.Proof.Blocks
import proofs.«175055_j28862180229634_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem
open Cert.Algebra Cert.Rbf

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's program was read over the extended reals as printed: nothing to preserve. -/
theorem preserves : Cert.preserves_Kernel_KernelIdeal := trivial

/-- Every entry of the re-read weights is an entry of the weights. -/
theorem wv_real (m : (ℓ : Loc Cert.KernelIdeal.nD Cert.KernelIdeal.τ Cert.KernelIdeal.sig) → Buf (Elt Ideal) ℓ)
    (c : Dev Cert.KernelIdeal.nD)
    (h : ∀ i, IsReal ((m ((c : Thread Cert.KernelIdeal.nD Cert.KernelIdeal.τ).loc Cert.KernelIdeal.main_arg1) : Cert.KernelIdeal.S64x32x3x3.Idx → EReal) i)) :
    ∀ i, IsReal (Host.wv m c i) := fun i => by
  unfold Host.wv shapeCast
  exact h _

/-- The kernel's run ends with the layer in its result array. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v14)
          = rbf (m ((c.tc : Thread Cert.KernelIdeal.nD Cert.KernelIdeal.τ).loc Cert.KernelIdeal.main_arg0)) (Host.wv m c)
              (m ((c.tc : Thread Cert.KernelIdeal.nD Cert.KernelIdeal.τ).loc Cert.KernelIdeal.main_arg2)) (Host.gam m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run Cert.KernelIdeal.defs _ _).mono (fun r h c => ⟨(h c).1.trans ?_, (h c).2⟩) (Cert.KernelIdeal.Value.run_blocks m ρ)
  obtain ⟨h0, h1, -, h3⟩ := Finite.real_of_pre _ _ _ _ (hpre c)
  exact Blocks.final m c h0 (wv_real m c h1) (h3 _)

/-- From memories that agree on the arguments the two programs end with the same result: the layer. -/
theorem algebraic : Cert.algebraic_KernelIdeal_ReferenceIdeal := by
  intro m ρ m' ρ' hpre hagree
  refine ⟨_, kernel_run m ρ hpre, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, Ref.ref_eq, (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
